-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S524288 : Shape := ⟨1, ![524288]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S131072x256 .f32) (main_arg1 : FVec F S256x256 .f32) (main_arg2 : FVec F S256x256 .f32) (main_arg3 : FVec F S256 .f32) (main_arg4 : FVec F S256x256 .f32) (main_arg5 : FVec F S256x256 .f32) (main_arg6 : FVec F S256 .f32) (main_arg7 : IVec S524288 32) (main_arg8 : IVec S524288 32) (main_arg9 : IVec S131072 32) (main_arg10 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S131072x256 : Shape := ⟨2, ![131072, 256]⟩
abbrev S256x256 : Shape := ⟨2, ![256, 256]⟩
abbrev S256 : Shape := ⟨1, ![256]⟩
abbrev S524288 : Shape := ⟨1, ![524288]⟩
abbrev S131072 : Shape := ⟨1, ![131072]⟩
abbrev S32768x256 : Shape := ⟨2, ![32768, 256]⟩
abbrev S_ : Shape := ⟨0, ![]⟩
abbrev S524288x1 : Shape := ⟨2, ![524288, 1]⟩
abbrev S524288x256 : Shape := ⟨2, ![524288, 256]⟩
abbrev S32768 : Shape := ⟨1, ![32768]⟩
abbrev S32768x1 : Shape := ⟨2, ![32768, 1]⟩
abbrev S1x256 : Shape := ⟨2, ![1, 256]⟩
abbrev S2048x256 : Shape := ⟨2, ![2048, 256]⟩
abbrev S8192x256 : Shape := ⟨2, ![8192, 256]⟩
abbrev S131072x1 : Shape := ⟨2, ![131072, 1]⟩
abbrev S8192 : Shape := ⟨1, ![8192]⟩
abbrev S8192x1 : Shape := ⟨2, ![8192, 1]⟩

abbrev nBuf : Space → Nat
  | .hbm => 67
  | .vmem => 18
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S524288, .i32⟩
  | .hbm, ⟨8, _⟩ => ⟨S524288, .i32⟩
  | .hbm, ⟨9, _⟩ => ⟨S131072, .i32⟩
  | .hbm, ⟨10, _⟩ => ⟨S131072, .i32⟩
  | .hbm, ⟨11, _⟩ => ⟨S32768x256, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S524288x1, .i32⟩
  | .hbm, ⟨20, _⟩ => ⟨S524288x256, .f32⟩
  | .hbm, ⟨21, _⟩ => ⟨S_, .f32⟩
  | .hbm, ⟨22, _⟩ => ⟨S32768x256, .f32⟩
  | .hbm, ⟨23, _⟩ => ⟨S524288x1, .i32⟩
  | .hbm, ⟨24, _⟩ => ⟨S32768x256, .f32⟩
  | .hbm, ⟨25, _⟩ => ⟨S_, .f32⟩
  | .hbm, ⟨26, _⟩ => ⟨S524288, .f32⟩
  | .hbm, ⟨27, _⟩ => ⟨S_, .f32⟩
  | .hbm, ⟨28, _⟩ => ⟨S32768, .f32⟩
  | .hbm, ⟨29, _⟩ => ⟨S524288x1, .i32⟩
  | .hbm, ⟨30, _⟩ => ⟨S32768, .f32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S32768x1, .f32⟩
  | .hbm, ⟨35, _⟩ => ⟨S32768x256, .f32⟩
  | .hbm, ⟨36, _⟩ => ⟨S32768x256, .f32⟩
  | .hbm, ⟨37, _⟩ => ⟨S1x256, .f32⟩
  | .hbm, ⟨38, _⟩ => ⟨S32768x256, .f32⟩
  | .hbm, ⟨39, _⟩ => ⟨S8192x256, .f32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S131072x256, .f32⟩
  | .hbm, ⟨49, _⟩ => ⟨S_, .f32⟩
  | .hbm, ⟨50, _⟩ => ⟨S8192x256, .f32⟩
  | .hbm, ⟨51, _⟩ => ⟨S131072x1, .i32⟩
  | .hbm, ⟨52, _⟩ => ⟨S8192x256, .f32⟩
  | .hbm, ⟨53, _⟩ => ⟨S_, .f32⟩
  | .hbm, ⟨54, _⟩ => ⟨S131072, .f32⟩
  | .hbm, ⟨55, _⟩ => ⟨S_, .f32⟩
  | .hbm, ⟨56, _⟩ => ⟨S8192, .f32⟩
  | .hbm, ⟨57, _⟩ => ⟨S131072x1, .i32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x256, .f32⟩
  | .hbm, ⟨64, _⟩ => ⟨S8192x256, .f32⟩
  | .hbm, ⟨65, _⟩ => ⟨S1x256, .f32⟩
  | .hbm, ⟨66, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S131072x256_S32768x256_0_0 : S131072x256.Slices ![0, 0] S32768x256
  bcast_S_S524288 : S_.BroadcastsInDim S524288 (![] : Fin 0 → Fin S524288.rank)
  bcast_S524288_S524288x1_0 : S524288.BroadcastsInDim S524288x1 (![0] : Fin 1 → Fin S524288x1.rank)
  bcast_S_S32768x256 : S_.BroadcastsInDim S32768x256 (![] : Fin 0 → Fin S32768x256.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S32768x256_S8192x256_0_0 : S32768x256.Slices ![0, 0] S8192x256
  bcast_S_S131072 : S_.BroadcastsInDim S131072 (![] : Fin 0 → Fin S131072.rank)
  bcast_S131072_S131072x1_0 : S131072.BroadcastsInDim S131072x1 (![0] : Fin 1 → Fin S131072x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  gather_S131072x256_S524288x1_S524288x256_1_0_n_n_0_1_1256_wf : GatherDims.WF S131072x256 S524288x1 S524288x256 [1] [0] [] [0] [] 1 ![1, 256]
  scatter_S32768x256_S524288x1_S524288x256_1_0_0_1_wf : ScatterDims.WF S32768x256 S524288x1 S524288x256 [1] [0] [0] 1
  scatter_S32768_S524288x1_S524288_n_0_0_1_wf : ScatterDims.WF S32768 S524288x1 S524288 [] [0] [0] 1
  dot_S2048x256_S256x256_S2048x256_1_0_0_1_n_n_wf : DotDims.WF S2048x256 S256x256 S2048x256 [1] [0] [0] [1] [] []
  gather_S32768x256_S131072x1_S131072x256_1_0_n_n_0_1_1256_wf : GatherDims.WF S32768x256 S131072x1 S131072x256 [1] [0] [] [0] [] 1 ![1, 256]
  scatter_S8192x256_S131072x1_S131072x256_1_0_0_1_wf : ScatterDims.WF S8192x256 S131072x1 S131072x256 [1] [0] [0] 1
  scatter_S8192_S131072x1_S131072_n_0_0_1_wf : ScatterDims.WF S8192 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x256.size a
  hwx0_1 : ∀ i : grid0.Coords, EltTy.bits .f32 = 32 ∨ (Rect.block (s := S32768x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S32768x256.size a
  hwx0_5 : ∀ i : grid0.Coords, EltTy.bits .f32 = 32 ∨ (Rect.block (s := S32768x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S8192x256.size a
  hwx1_5 : ∀ i : grid1.Coords, EltTy.bits .f32 = 32 ∨ (Rect.block (s := S8192x256) S2048x256.size (cc1_transform_5 i) (hinb1_5 i)).WholeWords (EltTy.packing .f32)

variable [Facts₀]

def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S524288 : Shape := ⟨1, ![524288]⟩
abbrev S131072 : Shape := ⟨1, ![131072]⟩
abbrev S32768x256 : Shape := ⟨2, ![32768, 256]⟩
abbrev S_ : Shape := ⟨0, ![]⟩
abbrev S524288x1 : Shape := ⟨2, ![524288, 1]⟩
abbrev S524288x256 : Shape := ⟨2, ![524288, 256]⟩
abbrev S32768 : Shape := ⟨1, ![32768]⟩
abbrev S32768x1 : Shape := ⟨2, ![32768, 1]⟩
abbrev S1x256 : Shape := ⟨2, ![1, 256]⟩
abbrev S8192x256 : Shape := ⟨2, ![8192, 256]⟩
abbrev S131072x1 : Shape := ⟨2, ![131072, 1]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S524288, .i32⟩
  | .hbm, ⟨8, _⟩ => ⟨S524288, .i32⟩
  | .hbm, ⟨9, _⟩ => ⟨S131072, .i32⟩
  | .hbm, ⟨10, _⟩ => ⟨S131072, .i32⟩
  | .hbm, ⟨11, _⟩ => ⟨S32768x256, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S524288x1, .i32⟩
  | .hbm, ⟨20, _⟩ => ⟨S524288x256, .f32⟩
  | .hbm, ⟨21, _⟩ => ⟨S_, .f32⟩
  | .hbm, ⟨22, _⟩ => ⟨S32768x256, .f32⟩
  | .hbm, ⟨23, _⟩ => ⟨S524288x1, .i32⟩
  | .hbm, ⟨24, _⟩ => ⟨S32768x256, .f32⟩
  | .hbm, ⟨25, _⟩ => ⟨S_, .f32⟩
  | .hbm, ⟨26, _⟩ => ⟨S524288, .f32⟩
  | .hbm, ⟨27, _⟩ => ⟨S_, .f32⟩
  | .hbm, ⟨28, _⟩ => ⟨S32768, .f32⟩
  | .hbm, ⟨29, _⟩ => ⟨S524288x1, .i32⟩
  | .hbm, ⟨30, _⟩ => ⟨S32768, .f32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S32768x1, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S1x256, .f32⟩
  | .hbm, ⟨41, _⟩ => ⟨S32768x256, .f32⟩
  | .hbm, ⟨42, _⟩ => ⟨S32768x256, .f32⟩
  | .hbm, ⟨43, _⟩ => ⟨S_, .f32⟩
  | .hbm, ⟨44, _⟩ => ⟨S32768x256, .f32⟩
  | .hbm, ⟨45, _⟩ => ⟨S32768x256, .f32⟩
  | .hbm, ⟨46, _⟩ => ⟨S8192x256, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x256, .f32⟩
  | .hbm, ⟨56, _⟩ => ⟨S_, .f32⟩
  | .hbm, ⟨57, _⟩ => ⟨S8192x256, .f32⟩
  | .hbm, ⟨58, _⟩ => ⟨S131072x1, .i32⟩
  | .hbm, ⟨59, _⟩ => ⟨S8192x256, .f32⟩
  | .hbm, ⟨60, _⟩ => ⟨S_, .f32⟩
  | .hbm, ⟨61, _⟩ => ⟨S131072, .f32⟩
  | .hbm, ⟨62, _⟩ => ⟨S_, .f32⟩
  | .hbm, ⟨63, _⟩ => ⟨S8192, .f32⟩
  | .hbm, ⟨64, _⟩ => ⟨S131072x1, .i32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S1x256, .f32⟩
  | .hbm, ⟨76, _⟩ => ⟨S8192x256, .f32⟩
  | .hbm, ⟨77, _⟩ => ⟨S8192x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S131072x256_S32768x256_0_0 : S131072x256.Slices ![0, 0] S32768x256
  bcast_S_S524288 : S_.BroadcastsInDim S524288 (![] : Fin 0 → Fin S524288.rank)
  bcast_S524288_S524288x1_0 : S524288.BroadcastsInDim S524288x1 (![0] : Fin 1 → Fin S524288x1.rank)
  bcast_S_S32768x256 : S_.BroadcastsInDim S32768x256 (![] : Fin 0 → Fin S32768x256.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x256_0_1 : S32768x1.BroadcastsInDim S32768x256 (![0, 1] : Fin 2 → Fin S32768x256.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S32768x256_S8192x256_0_0 : S32768x256.Slices ![0, 0] S8192x256
  bcast_S_S131072 : S_.BroadcastsInDim S131072 (![] : Fin 0 → Fin S131072.rank)
  bcast_S131072_S131072x1_0 : S131072.BroadcastsInDim S131072x1 (![0] : Fin 1 → Fin S131072x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S1x256_S8192x256_0_1 : S1x256.BroadcastsInDim S8192x256 (![0, 1] : Fin 2 → Fin S8192x256.rank)
  gather_S131072x256_S524288x1_S524288x256_1_0_n_n_0_1_1256_wf : GatherDims.WF S131072x256 S524288x1 S524288x256 [1] [0] [] [0] [] 1 ![1, 256]
  scatter_S32768x256_S524288x1_S524288x256_1_0_0_1_wf : ScatterDims.WF S32768x256 S524288x1 S524288x256 [1] [0] [0] 1
  scatter_S32768_S524288x1_S524288_n_0_0_1_wf : ScatterDims.WF S32768 S524288x1 S524288 [] [0] [0] 1
  dot_S32768x256_S256x256_S32768x256_1_0_0_1_n_n_wf : DotDims.WF S32768x256 S256x256 S32768x256 [1] [0] [0] [1] [] []
  gather_S32768x256_S131072x1_S131072x256_1_0_n_n_0_1_1256_wf : GatherDims.WF S32768x256 S131072x1 S131072x256 [1] [0] [] [0] [] 1 ![1, 256]
  scatter_S8192x256_S131072x1_S131072x256_1_0_0_1_wf : ScatterDims.WF S8192x256 S131072x1 S131072x256 [1] [0] [0] 1
  scatter_S8192_S131072x1_S131072_n_0_0_1_wf : ScatterDims.WF S8192 S131072x1 S131072 [] [0] [0] 1
  dot_S8192x256_S256x256_S8192x256_1_0_0_1_n_n_wf : DotDims.WF S8192x256 S256x256 S8192x256 [1] [0] [0] [1] [] []

variable [Facts₀]

def gather_S131072x256_S524288x1_S524288x256_1_0_n_n_0_1_1256 : GatherDims S131072x256 S524288x1 S524288x256 where
  offsetDims := [1]
  collapsedSliceDims := [0]
  operandBatchingDims := []
  startIndicesBatchingDims := []
  startIndexMap := [0]
  indexVectorDim := 1
  sliceSizes := ![1, 256]
  wf := gather_S131072x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def gather_S32768x256_S131072x1_S131072x256_1_0_n_n_0_1_1256 : GatherDims S32768x256 S131072x1 S131072x256 where
  offsetDims := [1]
  collapsedSliceDims := [0]
  operandBatchingDims := []
  startIndicesBatchingDims := []
  startIndexMap := [0]
  indexVectorDim := 1
  sliceSizes := ![1, 256]
  wf := gather_S32768x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KernelRun.lean ====
/-
  The idealized kernel program's run with its RESULT named.  The program is four segments: a stretch of host
  operations (the first layer's neighbour mean), the first dense combine as a grid of row blocks, a second stretch of
  host operations (the second layer's neighbour mean of the first layer's output), and the second dense combine.  Every
  weakly fair execution terminates with each buffer the thread state holds at the contents the fold through the four
  segments gives it; in particular the result buffer ends at the second combine's output array after its last
  write-back, and every argument ends as launched.
-/
import proofs.«128761_j25280177504627_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments: the result buffer ends at the last boundary's contents of it, the arguments as
    launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Result

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibDenseCombine.lean ====
/-
  One dense combine of a mean-aggregating graph layer, entry by entry, on the extended reals, for any sizes.

  Entry (p, q) of the combine of a node-feature matrix X, a neighbour-mean matrix Y, two weight matrices Ws, Wn
  and a bias row is

      (sum over k of X (p, k) * Ws (k, q))  +  (sum over k of Y (p, k) * Wn (k, q))  +  bias (0, q).

  A tile of rows computes it as two matrix-unit products into zero accumulators, added, plus the bias row
  spread over the tile's rows; the host computes it as two dot_generals, added, plus the bias row spread over all
  rows.  Both are the sum above with the same grouping of its three terms, so no law beyond reading each
  operation at an index is used, and nothing needs the entries to be finite.
-/
import Idealize.ShloMosaic.PureOps.Ideal.Laws
import Idealize.ShloMosaic.Lib.ValueIdx
import Idealize.ShloMosaic.Lib.Pipeline.Value
import proofs.«128761_j25280177504627_1_alg».proof.Proof.LibPlainDot
import proofs.«128761_j25280177504627_1_alg».proof.Proof.LibRank2Layout
import proofs.«128761_j25280177504627_1_alg».proof.Proof.LibBroadcastInDim2

noncomputable section

open scoped BigOperators

namespace Cert.Sage

open Idealize.ShloMosaic Idealize.ShloMosaic.ValueIdx Cert.Bridge

/-- Entry (p, q) of the dense combine: the two contraction sums, added, plus the bias row's entry q. -/
def combine {a K B : Nat} (X Y : (⟨2, ![a, K]⟩ : Shape).Idx → EReal) (Ws Wn : (⟨2, ![K, B]⟩ : Shape).Idx → EReal)
    (brow : (⟨2, ![1, B]⟩ : Shape).Idx → EReal) (p : Fin a) (q : Fin B) : EReal :=
  (∑ k : Fin K, X (ix2 p k) * Ws (ix2 k q) + ∑ k : Fin K, Y (ix2 p k) * Wn (ix2 k q)) + brow (ix2 (0 : Fin 1) q)

/-- The combine depends on X and Y only through row p: two pairs of matrices with the same row p (possibly of
    different heights, at different row numbers) give the same entry. -/
theorem combine_congr {a a' K B : Nat} (X Y : (⟨2, ![a, K]⟩ : Shape).Idx → EReal)
    (X' Y' : (⟨2, ![a', K]⟩ : Shape).Idx → EReal) (Ws Wn Ws' Wn' : (⟨2, ![K, B]⟩ : Shape).Idx → EReal)
    (brow brow' : (⟨2, ![1, B]⟩ : Shape).Idx → EReal) (p : Fin a) (p' : Fin a') (q : Fin B)
    (hX : ∀ k : Fin K, X (ix2 p k) = X' (ix2 p' k)) (hY : ∀ k : Fin K, Y (ix2 p k) = Y' (ix2 p' k))
    (hWs : ∀ k : Fin K, Ws (ix2 k q) = Ws' (ix2 k q)) (hWn : ∀ k : Fin K, Wn (ix2 k q) = Wn' (ix2 k q))
    (hb : brow (ix2 (0 : Fin 1) q) = brow' (ix2 (0 : Fin 1) q)) :
    combine X Y Ws Wn brow p q = combine X' Y' Ws' Wn' brow' p' q := by
  unfold combine
  have h1 : ∑ k : Fin K, X (ix2 p k) * Ws (ix2 k q) = ∑ k : Fin K, X' (ix2 p' k) * Ws' (ix2 k q) :=
    Finset.sum_congr rfl fun k _ => by rw [hX k, hWs k]
  have h2 : ∑ k : Fin K, Y (ix2 p k) * Wn (ix2 k q) = ∑ k : Fin K, Y' (ix2 p' k) * Wn' (ix2 k q) :=
    Finset.sum_congr rfl fun k _ => by rw [hY k, hWn k]
  rw [h1, h2, hb]

/-- THE HOST's form at (p, q): two dot_generals of plain dimension numbers, added, plus the bias row spread along the
    first axis. -/
theorem host_apply {a K B : Nat} (d : DotDims ⟨2, ![a, K]⟩ ⟨2, ![K, B]⟩ ⟨2, ![a, B]⟩)
    (hlc : d.lhsContracting = [1]) (hrc : d.rhsContracting = [0]) (hln : d.lhsNonContracting = [0])
    (hrn : d.rhsNonContracting = [1]) (hlb : d.lhsBatch = []) (hrb : d.rhsBatch = [])
    (hb : (⟨2, ![1, B]⟩ : Shape).BroadcastsInDim ⟨2, ![a, B]⟩ (![0, 1] : Fin 2 → Fin 2))
    (X Y : FVec Ideal ⟨2, ![a, K]⟩ .f32) (Ws Wn : FVec Ideal ⟨2, ![K, B]⟩ .f32) (brow : FVec Ideal ⟨2, ![1, B]⟩ .f32)
    (p : Fin a) (q : Fin B) :
    addf (addf (Host.dotGeneral d none X Ws) (Host.dotGeneral d none Y Wn))
        (broadcastInDim (⟨2, ![a, B]⟩ : Shape) (![0, 1] : Fin 2 → Fin 2) hb brow) (ix2 p q)
      = combine X Y Ws Wn brow p q := by
  show (FloatOps.dotGeneral d none .single X Ws (ix2 p q) + FloatOps.dotGeneral d none .single Y Wn (ix2 p q))
      + broadcastInDim (⟨2, ![a, B]⟩ : Shape) (![0, 1] : Fin 2 → Fin 2) hb brow (ix2 p q) = _
  rw [dotGeneral_plain d hlc hrc hln hrn hlb hrb, dotGeneral_plain d hlc hrc hln hrn hlb hrb,
    BroadcastInDim2.rowToMat_apply]
  rfl

/-- A TILE's form at (p, q): two matrix-unit products into zero accumulators (the operands possibly of a narrower
    float format, which is the same extended real), added, plus the bias row spread along the tile's rows. -/
theorem tile_apply {r K B : Nat} {φ : FTy} (d : DotDims ⟨2, ![r, K]⟩ ⟨2, ![K, B]⟩ ⟨2, ![r, B]⟩)
    (hlc : d.lhsContracting = [1]) (hrc : d.rhsContracting = [0]) (hln : d.lhsNonContracting = [0])
    (hrn : d.rhsNonContracting = [1]) (hlb : d.lhsBatch = []) (hrb : d.rhsBatch = [])
    (hb : (⟨2, ![1, B]⟩ : Shape).Broadcasts ⟨2, ![r, B]⟩)
    (x y : FVec Ideal ⟨2, ![r, K]⟩ φ) (ws wn : FVec Ideal ⟨2, ![K, B]⟩ φ) (brow : FVec Ideal ⟨2, ![1, B]⟩ .f32)
    (p : Fin r) (q : Fin B) :
    addf (addf (matmul d none x ws (constant ⟨2, ![r, B]⟩ .f32 0x00000000#32))
          (matmul d none y wn (constant ⟨2, ![r, B]⟩ .f32 0x00000000#32)))
        (broadcastTo (⟨2, ![r, B]⟩ : Shape) brow hb) (ix2 p q)
      = combine x y ws wn brow p q := by
  show (FloatOps.matmul d none x ws (constant ⟨2, ![r, B]⟩ .f32 0x00000000#32) (ix2 p q)
      + FloatOps.matmul d none y wn (constant ⟨2, ![r, B]⟩ .f32 0x00000000#32) (ix2 p q))
      + broadcastTo (⟨2, ![r, B]⟩ : Shape) brow hb (ix2 p q) = _
  rw [matmul_zero_plain d hlc hrc hln hrn hlb hrb, matmul_zero_plain d hlc hrc hln hrn hlb hrb,
    Rank2.bcastRow_apply]
  rfl

/-- A scalar constant spread to any shape reads the constant everywhere. -/
theorem splat_apply {t : Shape} (h : (⟨0, ![]⟩ : Shape).BroadcastsInDim t (![] : Fin 0 → Fin t.rank))
    (x : (⟨0, ![]⟩ : Shape).Idx → EReal) (j : t.Idx) :
    broadcastInDim t (![] : Fin 0 → Fin t.rank) h x j = x (fun d => d.elim0) :=
  broadcastInDim_apply (![] : Fin 0 → Fin t.rank) h x j (fun d => d.elim0) (fun d => d.elim0)

end Cert.Sage

end
-- ==== Proof.Blocks0.lean ====
/-
  The first dense combine as a grid of row blocks: what its output array holds after the last write-back, for
  ANY contents V of the buffers at the region's entry.

  The grid has 16 points; point t reads rows 2048 t … 2048 t + 2047 of the node-feature and neighbour-mean matrices,
  the two whole weight matrices and the whole bias row, and writes rows 2048 t … 2048 t + 2047 of the output.  Entry
  (p, q) of the tile it writes is the combine of its row p, clamped below at zero, which is the combine of row 2048 t + p of the whole
  matrices; the 16 tiles cover the 32768 rows (row n lies in tile n / 2048).  So the output array ends as the combine of
  the whole matrices, entry by entry, clamped below at zero.
-/
import proofs.«128761_j25280177504627_1_alg».proof.Proof.Gen.KernelIdeal.Frame
import proofs.«128761_j25280177504627_1_alg».proof.Proof.LibDenseCombine
import Idealize.ShloMosaic.Lib.Pipeline.Value

set_option maxRecDepth 16384

noncomputable section

open scoped BigOperators

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the five input arrays: entry i is the combine at (i 0, i 1), clamped below at zero. -/
abbrev G (X Y : S32768x256.Idx → EReal) (Ws Wn : S256x256.Idx → EReal) (Br : S1x256.Idx → EReal) : S32768x256.Idx → EReal :=
  fun i => max (Sage.combine X Y Ws Wn Br (i 0) (i 1)) (Ideal.ofBits .f32 0x00000000#32)

/-- The tile a point writes, at (p, q): the combine of the loaded blocks at (p, q), clamped below at zero. -/
theorem pay_apply (x0 x1 : Vec Ideal S2048x256 .f32) (x2 x3 : Vec Ideal S256x256 .f32) (x4 : Vec Ideal S1x256 .f32)
    (p : Fin 2048) (q : Fin 256) :
    k0_pay1 x0 x1 x2 x3 x4 (ix2 p q) = max (Sage.combine x0 x1 x2 x3 x4 p q) (Ideal.ofBits .f32 0x00000000#32) := by
  unfold k0_pay1
  simp only [shapeCast_self]
  exact congrArg (fun z => max z (Ideal.ofBits .f32 0x00000000#32))
    (Sage.tile_apply dot_S2048x256_S256x256_S2048x256_1_0_0_1_n_n rfl rfl rfl rfl rfl rfl broadcasts_S1x256_S2048x256
      (truncf .bf16 x0 bitsLt_bf16_f32) (truncf .bf16 x1 bitsLt_bf16_f32) (truncf .bf16 x2 bitsLt_bf16_f32)
      (truncf .bf16 x3 bitsLt_bf16_f32) x4 p q)

/-- The printed index maps, decided over the grid: the row-blocked windows sit at block (t, 0), the whole-array windows
    at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 2048 t … 2048 t + 2047 of its array. -/
theorem blk0 (c : Dev nD) (t : Fin cfg0.N) (y : S2048x256.Idx) (k : S32768x256.Idx)
    (h0 : (k 0).val = t.val * 2048 + (y 0).val) (h1 : (k 1).val = (y 1).val) :
    (iblk0 (F := Ideal) V c 0 t : S2048x256.Idx → EReal) y = (V c main_v0 : S32768x256.Idx → EReal) k := by
  have e0 := (idx t).1
  have e1 := (idx t).2.1
  unfold iblk0
  rw [View.read_apply]
  show (V c main_v0 : S32768x256.Idx → EReal) _ = (V c main_v0 : S32768x256.Idx → EReal) k
  refine congrArg _ ?_
  funext a
  apply Fin.ext
  match a with
  | ⟨0, _⟩ => show win0_0.index t (0 : Fin 2) * 2048 + 1 * (y 0).val = (k 0).val; rw [e0, h0]; omega
  | ⟨1, _⟩ => show win0_0.index t (1 : Fin 2) * 256 + 1 * (y 1).val = (k 1).val; rw [e1, h1]; omega

/-- Window 1's block at point t is rows 2048 t … 2048 t + 2047 of its array. -/
theorem blk1 (c : Dev nD) (t : Fin cfg0.N) (y : S2048x256.Idx) (k : S32768x256.Idx)
    (h0 : (k 0).val = t.val * 2048 + (y 0).val) (h1 : (k 1).val = (y 1).val) :
    (iblk0 (F := Ideal) V c 1 t : S2048x256.Idx → EReal) y = (V c main_v19 : S32768x256.Idx → EReal) k := by
  have e0 := (idx t).2.2.1
  have e1 := (idx t).2.2.2.1
  unfold iblk0
  rw [View.read_apply]
  show (V c main_v19 : S32768x256.Idx → EReal) _ = (V c main_v19 : S32768x256.Idx → EReal) k
  refine congrArg _ ?_
  funext a
  apply Fin.ext
  match a with
  | ⟨0, _⟩ => show win0_1.index t (0 : Fin 2) * 2048 + 1 * (y 0).val = (k 0).val; rw [e0, h0]; omega
  | ⟨1, _⟩ => show win0_1.index t (1 : Fin 2) * 256 + 1 * (y 1).val = (k 1).val; rw [e1, h1]; omega

/-- Window 2's block at every point is its whole array. -/
theorem blk2 (c : Dev nD) (t : Fin cfg0.N) (y : S256x256.Idx) :
    (iblk0 (F := Ideal) V c 2 t : S256x256.Idx → EReal) y = (V c main_arg1 : S256x256.Idx → EReal) y := by
  have e0 := (idx t).2.2.2.2.1
  have e1 := (idx t).2.2.2.2.2.1
  unfold iblk0
  rw [View.read_apply]
  show (V c main_arg1 : S256x256.Idx → EReal) _ = (V c main_arg1 : S256x256.Idx → EReal) y
  refine congrArg _ ?_
  funext a
  apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- Window 3's block at every point is its whole array. -/
theorem blk3 (c : Dev nD) (t : Fin cfg0.N) (y : S256x256.Idx) :
    (iblk0 (F := Ideal) V c 3 t : S256x256.Idx → EReal) y = (V c main_arg2 : S256x256.Idx → EReal) y := by
  have e0 := (idx t).2.2.2.2.2.2.1
  have e1 := (idx t).2.2.2.2.2.2.2.1
  unfold iblk0
  rw [View.read_apply]
  show (V c main_arg2 : S256x256.Idx → EReal) _ = (V c main_arg2 : S256x256.Idx → EReal) y
  refine congrArg _ ?_
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- Window 4's block at every point is its whole array. -/
theorem blk4 (c : Dev nD) (t : Fin cfg0.N) (y : S1x256.Idx) :
    (iblk0 (F := Ideal) V c 4 t : S1x256.Idx → EReal) y = (V c main_v20 : S1x256.Idx → EReal) y := by
  have e0 := (idx t).2.2.2.2.2.2.2.2.1
  have e1 := (idx t).2.2.2.2.2.2.2.2.2.1
  unfold iblk0
  rw [View.read_apply]
  show (V c main_v20 : S1x256.Idx → EReal) _ = (V c main_v20 : S1x256.Idx → EReal) y
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The tile point t writes, at a tile index j, is the whole-array function at the index i that j names. -/
theorem tile (c : Dev nD) (t : Fin cfg0.N) (j : S2048x256.Idx) (i : S32768x256.Idx)
    (h0 : (i 0).val = t.val * 2048 + (j 0).val) (h1 : (i 1).val = (j 1).val) :
    k0_pay1 (iblk0 (F := Ideal) V c 0 t) (iblk0 (F := Ideal) V c 1 t) (iblk0 (F := Ideal) V c 2 t)
        (iblk0 (F := Ideal) V c 3 t) (iblk0 (F := Ideal) V c 4 t) j
      = G (V c main_v0) (V c main_v19) (V c main_arg1) (V c main_arg2) (V c main_v20) i := by
  obtain ⟨p, q, rfl⟩ : ∃ (p : Fin 2048) (q : Fin 256), j = ix2 p q := ⟨j 0, j 1, eq_ix2 j⟩
  obtain ⟨p', q', rfl⟩ : ∃ (p' : Fin 32768) (q' : Fin 256), i = ix2 p' q' := ⟨i 0, i 1, eq_ix2 i⟩
  have h0' : p'.val = t.val * 2048 + p.val := h0
  obtain rfl : q' = q := Fin.ext h1
  rw [pay_apply]
  show max (Sage.combine _ _ _ _ _ p q') (Ideal.ofBits .f32 0x00000000#32) = max (Sage.combine _ _ _ _ _ p' q') (Ideal.ofBits .f32 0x00000000#32)
  refine congrArg (fun z => max z (Ideal.ofBits .f32 0x00000000#32)) (Sage.combine_congr _ _ _ _ _ _ _ _ _ _ p p' q' ?_ ?_ ?_ ?_ ?_)
  · exact fun k => blk0 V c t (ix2 p k) (ix2 p' k) h0' rfl
  · exact fun k => blk1 V c t (ix2 p k) (ix2 p' k) h0' rfl
  · exact fun k => blk2 V c t (ix2 k q')
  · exact fun k => blk3 V c t (ix2 k q')
  · exact blk4 V c t (ix2 (0 : Fin 1) q')

/-- WHAT POINT t WRITES BACK is block t of the whole-array function. -/
theorem flushed (c : Dev nD) (t : Fin cfg0.N) :
    (dat0 V c).flushed 5 t = ((cfg0.win 5).blk t).view.read (Elt Ideal) (G (V c main_v0) (V c main_v19) (V c main_arg1) (V c main_arg2) (V c main_v20)) := by
  show (cfg0.win 5).cut (grid0.coords t) ((dat0 V c).after 5 t) = _
  rw [after0_5]
  unfold out0_5
  rw [View.canon_unit_zero hz]
  simp only [View.ld_unit_zero (S := S2048x256) hz, View.ld_unit_zero (S := S256x256) hz, View.ld_unit_zero (S := S1x256) hz]
  have e0 := (idx t).2.2.2.2.2.2.2.2.2.2.1
  have e1 := (idx t).2.2.2.2.2.2.2.2.2.2.2
  funext j
  rw [View.read_apply]
  refine tile V c t j _ ?_ ?_
  · show win0_5.index t (0 : Fin 2) * 2048 + 1 * (j 0).val = t.val * 2048 + (j 0).val; rw [e0]; omega
  · show win0_5.index t (1 : Fin 2) * 256 + 1 * (j 1).val = (j 1).val; rw [e1]; omega

/-- An index of the output array is in point t's block iff each coordinate is in the block's range on its axis. -/
theorem mem_blk (t : Fin cfg0.N) (i : S32768x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v21).slice (win0_5.rect t)).set ↔ _
  rw [View.set_slice_whole, Rect.mem_set_unit]
  exact Iff.rfl

/-- The tiles cover the array: row n is in tile n / 2048. -/
theorem cover (i : S32768x256.Idx) : ∃ t : Fin cfg0.N, (cfg0.win 5).flush t = true ∧ i ∈ ((cfg0.win 5).blk t).view.set := by
  have hi0 : (i 0).val < 32768 := (i 0).isLt
  have hi1 : (i 1).val < 256 := (i 1).isLt
  have hN : cfg0.N = 16 := N_0
  have ht : (i 0).val / 2048 < cfg0.N := by rw [hN]; omega
  have e0 := (idx ⟨(i 0).val / 2048, ht⟩).2.2.2.2.2.2.2.2.2.2.1
  have e1 := (idx ⟨(i 0).val / 2048, ht⟩).2.2.2.2.2.2.2.2.2.2.2
  refine ⟨⟨(i 0).val / 2048, ht⟩, flush0_5 _, ?_⟩
  rw [mem_blk]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, ht⟩ (1 : Fin 2) * 256 ≤ (i 1).val ∧ (i 1).val < win0_5.index ⟨(i 0).val / 2048, ht⟩ (1 : Fin 2) * 256 + 256
    rw [e1]; omega

/-- THE OUTPUT ARRAY after the last write-back: the whole-array function of the region's entry contents. -/
theorem final (c : Dev nD) : (dat0 V c).arrAt 5 cfg0.N = G (V c main_v0) (V c main_v19) (V c main_arg1) (V c main_arg2) (V c main_v20) :=
  (dat0 V c).arrAt_eq_of_cover 5 (G (V c main_v0) (V c main_v19) (V c main_arg1) (V c main_arg2) (V c main_v20)) (fun t _ => flushed V c t) cover

end Cert.KernelIdeal.Blocks0

end
-- ==== Proof.Blocks1.lean ====
/-
  The second dense combine as a grid of row blocks: what its output array holds after the last write-back, for
  ANY contents V of the buffers at the region's entry.

  The grid has 4 points; point t reads rows 2048 t … 2048 t + 2047 of the node-feature and neighbour-mean matrices,
  the two whole weight matrices and the whole bias row, and writes rows 2048 t … 2048 t + 2047 of the output.  Entry
  (p, q) of the tile it writes is the combine of its row p, which is the combine of row 2048 t + p of the whole
  matrices; the 4 tiles cover the 8192 rows (row n lies in tile n / 2048).  So the output array ends as the combine of
  the whole matrices, entry by entry.
-/
import proofs.«128761_j25280177504627_1_alg».proof.Proof.Gen.KernelIdeal.Frame
import proofs.«128761_j25280177504627_1_alg».proof.Proof.LibDenseCombine
import Idealize.ShloMosaic.Lib.Pipeline.Value

set_option maxRecDepth 16384

noncomputable section

open scoped BigOperators

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the five input arrays: entry i is the combine at (i 0, i 1). -/
abbrev G (X Y : S8192x256.Idx → EReal) (Ws Wn : S256x256.Idx → EReal) (Br : S1x256.Idx → EReal) : S8192x256.Idx → EReal :=
  fun i => Sage.combine X Y Ws Wn Br (i 0) (i 1)

/-- The tile a point writes, at (p, q): the combine of the loaded blocks at (p, q). -/
theorem pay_apply (x0 x1 : Vec Ideal S2048x256 .f32) (x2 x3 : Vec Ideal S256x256 .f32) (x4 : Vec Ideal S1x256 .f32)
    (p : Fin 2048) (q : Fin 256) :
    k1_pay1 x0 x1 x2 x3 x4 (ix2 p q) = Sage.combine x0 x1 x2 x3 x4 p q := by
  unfold k1_pay1
  simp only [shapeCast_self]
  exact Sage.tile_apply dot_S2048x256_S256x256_S2048x256_1_0_0_1_n_n rfl rfl rfl rfl rfl rfl broadcasts_S1x256_S2048x256
      (truncf .bf16 x0 bitsLt_bf16_f32) (truncf .bf16 x1 bitsLt_bf16_f32) (truncf .bf16 x2 bitsLt_bf16_f32)
      (truncf .bf16 x3 bitsLt_bf16_f32) x4 p q

/-- The printed index maps, decided over the grid: the row-blocked windows sit at block (t, 0), the whole-array windows
    at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 2048 t … 2048 t + 2047 of its array. -/
theorem blk0 (c : Dev nD) (t : Fin cfg1.N) (y : S2048x256.Idx) (k : S8192x256.Idx)
    (h0 : (k 0).val = t.val * 2048 + (y 0).val) (h1 : (k 1).val = (y 1).val) :
    (iblk1 (F := Ideal) V c 0 t : S2048x256.Idx → EReal) y = (V c main_v22 : S8192x256.Idx → EReal) k := by
  have e0 := (idx t).1
  have e1 := (idx t).2.1
  unfold iblk1
  rw [View.read_apply]
  show (V c main_v22 : S8192x256.Idx → EReal) _ = (V c main_v22 : S8192x256.Idx → EReal) k
  refine congrArg _ ?_
  funext a
  apply Fin.ext
  match a with
  | ⟨0, _⟩ => show win1_0.index t (0 : Fin 2) * 2048 + 1 * (y 0).val = (k 0).val; rw [e0, h0]; omega
  | ⟨1, _⟩ => show win1_0.index t (1 : Fin 2) * 256 + 1 * (y 1).val = (k 1).val; rw [e1, h1]; omega

/-- Window 1's block at point t is rows 2048 t … 2048 t + 2047 of its array. -/
theorem blk1 (c : Dev nD) (t : Fin cfg1.N) (y : S2048x256.Idx) (k : S8192x256.Idx)
    (h0 : (k 0).val = t.val * 2048 + (y 0).val) (h1 : (k 1).val = (y 1).val) :
    (iblk1 (F := Ideal) V c 1 t : S2048x256.Idx → EReal) y = (V c main_v41 : S8192x256.Idx → EReal) k := by
  have e0 := (idx t).2.2.1
  have e1 := (idx t).2.2.2.1
  unfold iblk1
  rw [View.read_apply]
  show (V c main_v41 : S8192x256.Idx → EReal) _ = (V c main_v41 : S8192x256.Idx → EReal) k
  refine congrArg _ ?_
  funext a
  apply Fin.ext
  match a with
  | ⟨0, _⟩ => show win1_1.index t (0 : Fin 2) * 2048 + 1 * (y 0).val = (k 0).val; rw [e0, h0]; omega
  | ⟨1, _⟩ => show win1_1.index t (1 : Fin 2) * 256 + 1 * (y 1).val = (k 1).val; rw [e1, h1]; omega

/-- Window 2's block at every point is its whole array. -/
theorem blk2 (c : Dev nD) (t : Fin cfg1.N) (y : S256x256.Idx) :
    (iblk1 (F := Ideal) V c 2 t : S256x256.Idx → EReal) y = (V c main_arg4 : S256x256.Idx → EReal) y := by
  have e0 := (idx t).2.2.2.2.1
  have e1 := (idx t).2.2.2.2.2.1
  unfold iblk1
  rw [View.read_apply]
  show (V c main_arg4 : S256x256.Idx → EReal) _ = (V c main_arg4 : S256x256.Idx → EReal) y
  refine congrArg _ ?_
  funext a
  apply Fin.ext
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- Window 3's block at every point is its whole array. -/
theorem blk3 (c : Dev nD) (t : Fin cfg1.N) (y : S256x256.Idx) :
    (iblk1 (F := Ideal) V c 3 t : S256x256.Idx → EReal) y = (V c main_arg5 : S256x256.Idx → EReal) y := by
  have e0 := (idx t).2.2.2.2.2.2.1
  have e1 := (idx t).2.2.2.2.2.2.2.1
  unfold iblk1
  rw [View.read_apply]
  show (V c main_arg5 : S256x256.Idx → EReal) _ = (V c main_arg5 : S256x256.Idx → EReal) y
  refine congrArg _ ?_
  funext a
  apply Fin.ext
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- Window 4's block at every point is its whole array. -/
theorem blk4 (c : Dev nD) (t : Fin cfg1.N) (y : S1x256.Idx) :
    (iblk1 (F := Ideal) V c 4 t : S1x256.Idx → EReal) y = (V c main_v42 : S1x256.Idx → EReal) y := by
  have e0 := (idx t).2.2.2.2.2.2.2.2.1
  have e1 := (idx t).2.2.2.2.2.2.2.2.2.1
  unfold iblk1
  rw [View.read_apply]
  show (V c main_v42 : S1x256.Idx → EReal) _ = (V c main_v42 : S1x256.Idx → EReal) y
  refine congrArg _ ?_
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The tile point t writes, at a tile index j, is the whole-array function at the index i that j names. -/
theorem tile (c : Dev nD) (t : Fin cfg1.N) (j : S2048x256.Idx) (i : S8192x256.Idx)
    (h0 : (i 0).val = t.val * 2048 + (j 0).val) (h1 : (i 1).val = (j 1).val) :
    k1_pay1 (iblk1 (F := Ideal) V c 0 t) (iblk1 (F := Ideal) V c 1 t) (iblk1 (F := Ideal) V c 2 t)
        (iblk1 (F := Ideal) V c 3 t) (iblk1 (F := Ideal) V c 4 t) j
      = G (V c main_v22) (V c main_v41) (V c main_arg4) (V c main_arg5) (V c main_v42) i := by
  obtain ⟨p, q, rfl⟩ : ∃ (p : Fin 2048) (q : Fin 256), j = ix2 p q := ⟨j 0, j 1, eq_ix2 j⟩
  obtain ⟨p', q', rfl⟩ : ∃ (p' : Fin 8192) (q' : Fin 256), i = ix2 p' q' := ⟨i 0, i 1, eq_ix2 i⟩
  have h0' : p'.val = t.val * 2048 + p.val := h0
  obtain rfl : q' = q := Fin.ext h1
  rw [pay_apply]
  show Sage.combine _ _ _ _ _ p q' = Sage.combine _ _ _ _ _ p' q'
  refine (Sage.combine_congr _ _ _ _ _ _ _ _ _ _ p p' q' ?_ ?_ ?_ ?_ ?_)
  · exact fun k => blk0 V c t (ix2 p k) (ix2 p' k) h0' rfl
  · exact fun k => blk1 V c t (ix2 p k) (ix2 p' k) h0' rfl
  · exact fun k => blk2 V c t (ix2 k q')
  · exact fun k => blk3 V c t (ix2 k q')
  · exact blk4 V c t (ix2 (0 : Fin 1) q')

/-- WHAT POINT t WRITES BACK is block t of the whole-array function. -/
theorem flushed (c : Dev nD) (t : Fin cfg1.N) :
    (dat1 V c).flushed 5 t = ((cfg1.win 5).blk t).view.read (Elt Ideal) (G (V c main_v22) (V c main_v41) (V c main_arg4) (V c main_arg5) (V c main_v42)) := by
  show (cfg1.win 5).cut (grid1.coords t) ((dat1 V c).after 5 t) = _
  rw [after1_5]
  unfold out1_5
  rw [View.canon_unit_zero hz]
  simp only [View.ld_unit_zero (S := S2048x256) hz, View.ld_unit_zero (S := S256x256) hz, View.ld_unit_zero (S := S1x256) hz]
  have e0 := (idx t).2.2.2.2.2.2.2.2.2.2.1
  have e1 := (idx t).2.2.2.2.2.2.2.2.2.2.2
  funext j
  rw [View.read_apply]
  refine tile V c t j _ ?_ ?_
  · show win1_5.index t (0 : Fin 2) * 2048 + 1 * (j 0).val = t.val * 2048 + (j 0).val; rw [e0]; omega
  · show win1_5.index t (1 : Fin 2) * 256 + 1 * (j 1).val = (j 1).val; rw [e1]; omega

/-- An index of the output array is in point t's block iff each coordinate is in the block's range on its axis. -/
theorem mem_blk (t : Fin cfg1.N) (i : S8192x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_v43).slice (win1_5.rect t)).set ↔ _
  rw [View.set_slice_whole, Rect.mem_set_unit]
  exact Iff.rfl

/-- The tiles cover the array: row n is in tile n / 2048. -/
theorem cover (i : S8192x256.Idx) : ∃ t : Fin cfg1.N, (cfg1.win 5).flush t = true ∧ i ∈ ((cfg1.win 5).blk t).view.set := by
  have hi0 : (i 0).val < 8192 := (i 0).isLt
  have hi1 : (i 1).val < 256 := (i 1).isLt
  have hN : cfg1.N = 4 := N_1
  have ht : (i 0).val / 2048 < cfg1.N := by rw [hN]; omega
  have e0 := (idx ⟨(i 0).val / 2048, ht⟩).2.2.2.2.2.2.2.2.2.2.1
  have e1 := (idx ⟨(i 0).val / 2048, ht⟩).2.2.2.2.2.2.2.2.2.2.2
  refine ⟨⟨(i 0).val / 2048, ht⟩, flush1_5 _, ?_⟩
  rw [mem_blk]
  intro a
  match a with
  | ⟨0, _⟩ =>
    show win1_5.index ⟨(i 0).val / 2048, ht⟩ (0 : Fin 2) * 2048 ≤ (i 0).val ∧ (i 0).val < win1_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win1_5.index ⟨(i 0).val / 2048, ht⟩ (1 : Fin 2) * 256 ≤ (i 1).val ∧ (i 1).val < win1_5.index ⟨(i 0).val / 2048, ht⟩ (1 : Fin 2) * 256 + 256
    rw [e1]; omega

/-- THE OUTPUT ARRAY after the last write-back: the whole-array function of the region's entry contents. -/
theorem final (c : Dev nD) : (dat1 V c).arrAt 5 cfg1.N = G (V c main_v22) (V c main_v41) (V c main_arg4) (V c main_arg5) (V c main_v42) :=
  (dat1 V c).arrAt_eq_of_cover 5 (G (V c main_v22) (V c main_v41) (V c main_arg4) (V c main_arg5) (V c main_v42)) (fun t _ => flushed V c t) cover

end Cert.KernelIdeal.Blocks1

end
-- ==== Proof.LibReshapeVec.lean ====
/-
  A vector reshaped to a one-column or a one-row matrix is the vector broadcast in dimension 0, respectively 1, for
  any length: `reshape [a] → [a, 1]` against `broadcast_in_dim dims = [0]`, and `reshape [b] → [1, b]` against
  `broadcast_in_dim dims = [1]`.  Entry (p, 0) of either column is entry p of the vector, entry (0, q) of either row
  is entry q: the reshape by the row-major position (p·1 + 0 = p, 0·b + q = q), the broadcast by its index map.
-/
import Idealize.ShloMosaic.Lib.ValueIdx
import Idealize.ShloMosaic.Lib.Pipeline.Value
import proofs.«128761_j25280177504627_1_alg».proof.Proof.LibBroadcastInDim2

namespace Idealize.ShloMosaic.ReshapeVec

open Idealize.ShloMosaic Idealize.ShloMosaic.ValueIdx

variable {α : Type}

/-- A vector reshaped to a column is the vector broadcast along dimension 0 of the column. -/
theorem reshapeCol_eq_broadcastInDim {a : Nat} (v : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast (⟨2, ![a, 1]⟩ : Shape) v h = broadcastInDim (⟨2, ![a, 1]⟩ : Shape) (![0] : Fin 1 → Fin 2) h' v := by
  funext i
  obtain ⟨p, z, rfl⟩ : ∃ (p : Fin a) (z : Fin 1), i = ix2 p z := ⟨i 0, i 1, eq_ix2 i⟩
  rw [BroadcastInDim2.vecToCol_apply]
  obtain rfl : z = 0 := Fin.ext (by have := z.isLt; omega)
  exact shapeCast_apply v h (ix2 p (0 : Fin 1)) (ix1 p) (by
    rw [Shape.rowMajor_val_two, Shape.rowMajor_val_one]; show p.val = p.val * 1 + 0; omega)

/-- A vector reshaped to a row is the vector broadcast along dimension 1 of the row. -/
theorem reshapeRow_eq_broadcastInDim {b : Nat} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast (⟨2, ![1, b]⟩ : Shape) v h = broadcastInDim (⟨2, ![1, b]⟩ : Shape) (![1] : Fin 1 → Fin 2) h' v := by
  funext i
  obtain ⟨z, q, rfl⟩ : ∃ (z : Fin 1) (q : Fin b), i = ix2 z q := ⟨i 0, i 1, eq_ix2 i⟩
  rw [BroadcastInDim2.vecToRow_apply]
  obtain rfl : z = 0 := Fin.ext (by have := z.isLt; omega)
  exact shapeCast_apply v h (ix2 (0 : Fin 1) q) (ix1 q) (by
    rw [Shape.rowMajor_val_two, Shape.rowMajor_val_one]; show q.val = 0 * b + q.val; omega)

end Idealize.ShloMosaic.ReshapeVec
-- ==== Proof.RefLayers.lean ====
/-
  The reference's two layers, each identified with the dense combine entry by entry.

  The reference computes a layer as  dot_general(h_dst, W_self) + dot_general(h_neigh, W_neigh) + bias  with the bias
  vector laid out as a row by a broadcast and spread over the rows; after the first layer it clamps below at zero.  At
  entry (p, q) that is the combine of row p of h_dst and of h_neigh (and its clamp).  A vector reshaped to a row is the
  same row as the vector broadcast to a row, so the bias may equally be read through a reshape.

  The second layer's operands are functions of the first layer's output alone: its first 8192 rows (`head2`) and the
  mean over incoming edges of its gathered rows (`mean2`).  Both are named here as functions of an arbitrary
  [32768, 256] matrix, so that they can be applied to whatever array is known to equal the first layer's output.
-/
import proofs.«128761_j25280177504627_1_alg».proof.Proof.Gen.ReferenceIdeal.Read
import proofs.«128761_j25280177504627_1_alg».proof.Proof.LibDenseCombine
import proofs.«128761_j25280177504627_1_alg».proof.Proof.LibReshapeVec

noncomputable section

open scoped BigOperators

namespace Cert.ReferenceIdeal.Layers

open Cert.ReferenceIdeal Cert.ReferenceIdeal.Gen Cert.ReferenceIdeal.Read
open Idealize.ShloMosaic Idealize.ShloMosaic.ValueIdx

/-- The first layer's output at entry i: the combine of the first 32768 rows of x and of the neighbour mean, with the
    first layer's weights and bias, clamped below at zero. -/
theorem layer1_eq (x0 : (⟨S131072x256, .f32⟩ : BufTy).Contents (Elt Ideal)) (x1 x2 : (⟨S256x256, .f32⟩ : BufTy).Contents (Elt Ideal)) (x3 : (⟨S256, .f32⟩ : BufTy).Contents (Elt Ideal))
    (x7 x8 : (⟨S524288, .i32⟩ : BufTy).Contents (Elt Ideal)) (hc : S256.ShapeCasts S1x256) :
    val_main_v26 (F := Ideal) x0 x1 x2 x3 x7 x8
      = fun i => max (Sage.combine (val_main_v0 (F := Ideal) x0) (val_main_v19 (F := Ideal) x0 x7 x8) x1 x2
          (shapeCast S1x256 x3 hc) (i 0) (i 1)) (Ideal.ofBits .f32 0x00000000#32) := by
  funext i
  obtain ⟨p, q, rfl⟩ : ∃ (p : Fin 32768) (q : Fin 256), i = ix2 p q := ⟨i 0, i 1, eq_ix2 i⟩
  rw [val_main_v26_apply, val_main_call0_v0_apply, val_main_call0_cst_apply]
  show max (val_main_v25 (F := Ideal) x0 x1 x2 x3 x7 x8 (ix2 p q)) (Ideal.ofBits .f32 0x00000000#32)
    = max (Sage.combine _ _ _ _ _ p q) _
  refine congrArg (fun z => max z (Ideal.ofBits .f32 0x00000000#32)) ?_
  rw [ReshapeVec.reshapeRow_eq_broadcastInDim x3 hc bcast_S256_S1x256_1]
  exact Sage.host_apply dot_S32768x256_S256x256_S32768x256_1_0_0_1_n_n rfl rfl rfl rfl rfl rfl
    bcast_S1x256_S32768x256_0_1 (val_main_v0 (F := Ideal) x0) (val_main_v19 (F := Ideal) x0 x7 x8) x1 x2
    (broadcastInDim S1x256 ![1] bcast_S256_S1x256_1 x3) p q

/-- The second layer's output at entry i: the combine of the first 8192 rows of the first layer's output and of its
    neighbour mean, with the second layer's weights and bias. -/
theorem layer2_eq (x0 : (⟨S131072x256, .f32⟩ : BufTy).Contents (Elt Ideal)) (x1 x2 : (⟨S256x256, .f32⟩ : BufTy).Contents (Elt Ideal)) (x3 : (⟨S256, .f32⟩ : BufTy).Contents (Elt Ideal))
    (x4 x5 : (⟨S256x256, .f32⟩ : BufTy).Contents (Elt Ideal)) (x6 : (⟨S256, .f32⟩ : BufTy).Contents (Elt Ideal))
    (x7 x8 : (⟨S524288, .i32⟩ : BufTy).Contents (Elt Ideal)) (x9 x10 : (⟨S131072, .i32⟩ : BufTy).Contents (Elt Ideal)) (hc : S256.ShapeCasts S1x256) :
    val_main_v52 (F := Ideal) x0 x1 x2 x3 x4 x5 x6 x7 x8 x9 x10
      = fun i => Sage.combine (val_main_v27 (F := Ideal) x0 x1 x2 x3 x7 x8)
          (val_main_v46 (F := Ideal) x0 x1 x2 x3 x7 x8 x9 x10) x4 x5 (shapeCast S1x256 x6 hc) (i 0) (i 1) := by
  funext i
  obtain ⟨p, q, rfl⟩ : ∃ (p : Fin 8192) (q : Fin 256), i = ix2 p q := ⟨i 0, i 1, eq_ix2 i⟩
  show val_main_v52 (F := Ideal) x0 x1 x2 x3 x4 x5 x6 x7 x8 x9 x10 (ix2 p q) = Sage.combine _ _ _ _ _ p q
  rw [ReshapeVec.reshapeRow_eq_broadcastInDim x6 hc bcast_S256_S1x256_1]
  exact Sage.host_apply dot_S8192x256_S256x256_S8192x256_1_0_0_1_n_n rfl rfl rfl rfl rfl rfl
    bcast_S1x256_S8192x256_0_1 (val_main_v27 (F := Ideal) x0 x1 x2 x3 x7 x8)
    (val_main_v46 (F := Ideal) x0 x1 x2 x3 x7 x8 x9 x10) x4 x5
    (broadcastInDim S1x256 ![1] bcast_S256_S1x256_1 x6) p q

/-- The first 8192 rows of a [32768, 256] matrix. -/
def head2 (h : (⟨S32768x256, .f32⟩ : BufTy).Contents (Elt Ideal)) : (⟨S8192x256, .f32⟩ : BufTy).Contents (Elt Ideal) :=
  extractStridedSlice S8192x256 ![0, 0] h slices_S32768x256_S8192x256_0_0

/-- The second layer's neighbour mean of a [32768, 256] matrix h: the rows of h at the edges' sources, added into the
    edges' destinations, each destination's sum over its in-degree (at least one). -/
def mean2 (h : (⟨S32768x256, .f32⟩ : BufTy).Contents (Elt Ideal)) (x9 x10 : (⟨S131072, .i32⟩ : BufTy).Contents (Elt Ideal)) : (⟨S8192x256, .f32⟩ : BufTy).Contents (Elt Ideal) :=
  Host.divf (F := Ideal) (φ := .f32)
    (Host.scatterAdd (F := Ideal) (φ := .f32) scatter_S8192x256_S131072x1_S131072x256_1_0_0_1 (val_main_v35 (F := Ideal))
      (val_main_v36 (F := Ideal) x10)
      (Host.gather (α := Ideal .f32) gather_S32768x256_S131072x1_S131072x256_1_0_n_n_0_1_1256 h (val_main_v33 (F := Ideal) x9)))
    (val_main_v45 (F := Ideal) x10)

/-- Applied to the first layer's output they are the reference's own second-layer operands. -/
theorem head2_layer1 (x0 : (⟨S131072x256, .f32⟩ : BufTy).Contents (Elt Ideal)) (x1 x2 : (⟨S256x256, .f32⟩ : BufTy).Contents (Elt Ideal)) (x3 : (⟨S256, .f32⟩ : BufTy).Contents (Elt Ideal))
    (x7 x8 : (⟨S524288, .i32⟩ : BufTy).Contents (Elt Ideal)) :
    head2 (val_main_v26 (F := Ideal) x0 x1 x2 x3 x7 x8) = val_main_v27 (F := Ideal) x0 x1 x2 x3 x7 x8 := rfl

theorem mean2_layer1 (x0 : (⟨S131072x256, .f32⟩ : BufTy).Contents (Elt Ideal)) (x1 x2 : (⟨S256x256, .f32⟩ : BufTy).Contents (Elt Ideal)) (x3 : (⟨S256, .f32⟩ : BufTy).Contents (Elt Ideal))
    (x7 x8 : (⟨S524288, .i32⟩ : BufTy).Contents (Elt Ideal)) (x9 x10 : (⟨S131072, .i32⟩ : BufTy).Contents (Elt Ideal)) :
    mean2 (val_main_v26 (F := Ideal) x0 x1 x2 x3 x7 x8) x9 x10
      = val_main_v46 (F := Ideal) x0 x1 x2 x3 x7 x8 x9 x10 := rfl

end Cert.ReferenceIdeal.Layers

end
-- ==== Proof.HostReads.lean ====
/-
  The kernel program's two stretches of host operations, read back from ANY buffer contents W they start from.

  The first stretch takes the first 32768 rows of x, forms the first layer's neighbour mean (gather the rows of x at the
  edges' sources, add them into the edges' destinations, divide each destination's sum by its in-degree, at least
  one) and lays the first bias out as a row by a reshape.  These are the same operations, on the same operands, as the
  reference's first twenty, so the buffers they write hold the reference's stage functions of the arguments.  The
  second stretch does the same to the first layer's output buffer; and neither stretch writes an argument.
-/
import proofs.«128761_j25280177504627_1_alg».proof.Proof.Gen.KernelIdeal.Launch
import proofs.«128761_j25280177504627_1_alg».proof.Proof.RefLayers
import Idealize.ShloMosaic.Lib.StableHlo.Run

noncomputable section

namespace Cert.KernelIdeal.HostReads

open Cert.KernelIdeal Cert.KernelIdeal.Gen
open Idealize.ShloMosaic Idealize.ShloMosaic.TcCoe Idealize.SL.Sem Idealize.ShloMosaic.StableHlo

variable (W : Valuation τ sig (Elt Ideal))

/-! ## The first stretch -/

theorem s0_v0 : StableHlo.after (hostOps0 (F := Ideal)) W (Proc.devRef .tc main_v0)
    = Cert.ReferenceIdeal.Read.val_main_v0 (F := Ideal) (W (Proc.devRef .tc main_arg0)) := by
  after_results <;> rfl

set_option maxHeartbeats 1000000 in
theorem s0_v19 : StableHlo.after (hostOps0 (F := Ideal)) W (Proc.devRef .tc main_v19)
    = Cert.ReferenceIdeal.Read.val_main_v19 (F := Ideal) (W (Proc.devRef .tc main_arg0)) (W (Proc.devRef .tc main_arg7))
        (W (Proc.devRef .tc main_arg8)) := by
  after_results
  generalize W (Proc.devRef .tc main_arg0) = x0
  generalize W (Proc.devRef .tc main_arg7) = x7
  generalize W (Proc.devRef .tc main_arg8) = x8
  rfl

theorem s0_v20 : StableHlo.after (hostOps0 (F := Ideal)) W (Proc.devRef .tc main_v20)
    = shapeCast S1x256 (W (Proc.devRef .tc main_arg3)) shapeCasts_S256_S1x256 := by
  after_results <;> rfl

theorem s0_arg1 : StableHlo.after (hostOps0 (F := Ideal)) W (Proc.devRef .tc main_arg1) = W (Proc.devRef .tc main_arg1) := by
  after_results <;> rfl
theorem s0_arg2 : StableHlo.after (hostOps0 (F := Ideal)) W (Proc.devRef .tc main_arg2) = W (Proc.devRef .tc main_arg2) := by
  after_results <;> rfl
theorem s0_arg4 : StableHlo.after (hostOps0 (F := Ideal)) W (Proc.devRef .tc main_arg4) = W (Proc.devRef .tc main_arg4) := by
  after_results <;> rfl
theorem s0_arg5 : StableHlo.after (hostOps0 (F := Ideal)) W (Proc.devRef .tc main_arg5) = W (Proc.devRef .tc main_arg5) := by
  after_results <;> rfl
theorem s0_arg6 : StableHlo.after (hostOps0 (F := Ideal)) W (Proc.devRef .tc main_arg6) = W (Proc.devRef .tc main_arg6) := by
  after_results <;> rfl
theorem s0_arg9 : StableHlo.after (hostOps0 (F := Ideal)) W (Proc.devRef .tc main_arg9) = W (Proc.devRef .tc main_arg9) := by
  after_results <;> rfl
theorem s0_arg10 : StableHlo.after (hostOps0 (F := Ideal)) W (Proc.devRef .tc main_arg10) = W (Proc.devRef .tc main_arg10) := by
  after_results <;> rfl

/-! ## The second stretch -/

theorem s1_v22 : StableHlo.after (hostOps1 (F := Ideal)) W (Proc.devRef .tc main_v22)
    = Cert.ReferenceIdeal.Layers.head2 (W (Proc.devRef .tc main_v21)) := by
  after_results <;> rfl

set_option maxHeartbeats 1000000 in
theorem s1_v41 : StableHlo.after (hostOps1 (F := Ideal)) W (Proc.devRef .tc main_v41)
    = Cert.ReferenceIdeal.Layers.mean2 (W (Proc.devRef .tc main_v21)) (W (Proc.devRef .tc main_arg9))
        (W (Proc.devRef .tc main_arg10)) := by
  after_results
  generalize W (Proc.devRef .tc main_v21) = h
  generalize W (Proc.devRef .tc main_arg9) = x9
  generalize W (Proc.devRef .tc main_arg10) = x10
  rfl

theorem s1_v42 : StableHlo.after (hostOps1 (F := Ideal)) W (Proc.devRef .tc main_v42)
    = shapeCast S1x256 (W (Proc.devRef .tc main_arg6)) shapeCasts_S256_S1x256 := by
  after_results <;> rfl

theorem s1_arg4 : StableHlo.after (hostOps1 (F := Ideal)) W (Proc.devRef .tc main_arg4) = W (Proc.devRef .tc main_arg4) := by
  after_results <;> rfl
theorem s1_arg5 : StableHlo.after (hostOps1 (F := Ideal)) W (Proc.devRef .tc main_arg5) = W (Proc.devRef .tc main_arg5) := by
  after_results <;> rfl

end Cert.KernelIdeal.HostReads

end
-- ==== Proof.KernelValue.lean ====
/-
  The idealized kernel program's result as a function of its arguments: the reference's second-layer stage function.

  Following the buffers through the four segments.  After the first stretch of host operations the first combine's
  five input arrays hold the first 32768 rows of x, the first layer's neighbour mean, the two first-layer weight
  matrices and the first bias as a row; so its output array ends as their combine clamped below at zero, which is
  the reference's first-layer output, entry by entry.  The second stretch reads that array and the edge lists, which
  nothing has written, and leaves the second combine's inputs at the first 8192 rows of the first layer's output,
  its neighbour mean, the second-layer weights and the second bias as a row; so the result array ends as their
  combine, which is the reference's result, entry by entry.
-/
import proofs.«128761_j25280177504627_1_alg».proof.Proof.KernelRun
import proofs.«128761_j25280177504627_1_alg».proof.Proof.Blocks0
import proofs.«128761_j25280177504627_1_alg».proof.Proof.Blocks1
import proofs.«128761_j25280177504627_1_alg».proof.Proof.HostReads
import proofs.«128761_j25280177504627_1_alg».proof.Proof.RefLayers

set_option maxRecDepth 16384

noncomputable section

namespace Cert.KernelIdeal.Result

open Cert.KernelIdeal Cert.KernelIdeal.Gen
open Idealize.ShloMosaic Idealize.ShloMosaic.TcCoe Idealize.SL.Sem
open Cert.ReferenceIdeal.Read (val_main_v0 val_main_v19 val_main_v26 val_main_v27 val_main_v46 val_main_v52)

variable (m : (ℓ : Loc nD τ sig) → Buf (Elt Ideal) ℓ) (ρ : Dev nD → PrngReg)

/-! ## The first combine's inputs and output -/

theorem V1_v0 (c : Dev nD) : V1 m ρ c main_v0 = val_main_v0 (F := Ideal) (m ((c : Thread nD τ).loc main_arg0)) :=
  HostReads.s0_v0 (W0 m ρ c)

theorem V1_v19 (c : Dev nD) : V1 m ρ c main_v19 = val_main_v19 (F := Ideal) (m ((c : Thread nD τ).loc main_arg0)) (m ((c : Thread nD τ).loc main_arg7)) (m ((c : Thread nD τ).loc main_arg8)) :=
  HostReads.s0_v19 (W0 m ρ c)

theorem V1_v20 (c : Dev nD) : V1 m ρ c main_v20 = shapeCast S1x256 (m ((c : Thread nD τ).loc main_arg3)) shapeCasts_S256_S1x256 :=
  HostReads.s0_v20 (W0 m ρ c)

theorem V1_arg1 (c : Dev nD) : V1 m ρ c main_arg1 = m ((c : Thread nD τ).loc main_arg1) := HostReads.s0_arg1 (W0 m ρ c)
theorem V1_arg2 (c : Dev nD) : V1 m ρ c main_arg2 = m ((c : Thread nD τ).loc main_arg2) := HostReads.s0_arg2 (W0 m ρ c)

/-- The first combine's output array is the reference's first-layer output. -/
theorem layer1 (c : Dev nD) : W2 m ρ c (Proc.devRef .tc main_v21)
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  rw [show W2 m ρ c (Proc.devRef .tc main_v21) = (dat0 (V1 m ρ) c).arrAt 5 cfg0.N from W2_arr m ρ c 5]
  rw [Blocks0.final (V1 m ρ) c, Cert.ReferenceIdeal.Layers.layer1_eq _ _ _ _ _ _ shapeCasts_S256_S1x256]
  rw [V1_v0, V1_v19, V1_arg1, V1_arg2, V1_v20]

/-! ## What the first combine and the first stretch leave untouched -/

theorem W2_arg4 (c : Dev nD) : W2 m ρ c (Proc.devRef .tc main_arg4) = m ((c : Thread nD τ).loc main_arg4) :=
  (W2_of_ne m ρ c main_arg4 (by decide)).trans (HostReads.s0_arg4 (W0 m ρ c))
theorem W2_arg5 (c : Dev nD) : W2 m ρ c (Proc.devRef .tc main_arg5) = m ((c : Thread nD τ).loc main_arg5) :=
  (W2_of_ne m ρ c main_arg5 (by decide)).trans (HostReads.s0_arg5 (W0 m ρ c))
theorem W2_arg6 (c : Dev nD) : W2 m ρ c (Proc.devRef .tc main_arg6) = m ((c : Thread nD τ).loc main_arg6) :=
  (W2_of_ne m ρ c main_arg6 (by decide)).trans (HostReads.s0_arg6 (W0 m ρ c))
theorem W2_arg9 (c : Dev nD) : W2 m ρ c (Proc.devRef .tc main_arg9) = m ((c : Thread nD τ).loc main_arg9) :=
  (W2_of_ne m ρ c main_arg9 (by decide)).trans (HostReads.s0_arg9 (W0 m ρ c))
theorem W2_arg10 (c : Dev nD) : W2 m ρ c (Proc.devRef .tc main_arg10) = m ((c : Thread nD τ).loc main_arg10) :=
  (W2_of_ne m ρ c main_arg10 (by decide)).trans (HostReads.s0_arg10 (W0 m ρ c))

/-! ## The second combine's inputs and output -/

theorem V3_v22 (c : Dev nD) : V3 m ρ c main_v22
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  rw [show V3 m ρ c main_v22 = _ from HostReads.s1_v22 (W2 m ρ c), layer1 m ρ c]
  exact Cert.ReferenceIdeal.Layers.head2_layer1 _ _ _ _ _ _

theorem V3_v41 (c : Dev nD) : V3 m ρ c main_v41
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) := by
  rw [show V3 m ρ c main_v41 = _ from HostReads.s1_v41 (W2 m ρ c), layer1 m ρ c, W2_arg9 m ρ c, W2_arg10 m ρ c]
  exact Cert.ReferenceIdeal.Layers.mean2_layer1 _ _ _ _ _ _ _ _

theorem V3_v42 (c : Dev nD) : V3 m ρ c main_v42 = shapeCast S1x256 (m ((c : Thread nD τ).loc main_arg6)) shapeCasts_S256_S1x256 := by
  rw [show V3 m ρ c main_v42 = _ from HostReads.s1_v42 (W2 m ρ c), W2_arg6 m ρ c]

theorem V3_arg4 (c : Dev nD) : V3 m ρ c main_arg4 = m ((c : Thread nD τ).loc main_arg4) :=
  (HostReads.s1_arg4 (W2 m ρ c)).trans (W2_arg4 m ρ c)
theorem V3_arg5 (c : Dev nD) : V3 m ρ c main_arg5 = m ((c : Thread nD τ).loc main_arg5) :=
  (HostReads.s1_arg5 (W2 m ρ c)).trans (W2_arg5 m ρ c)

/-- THE RESULT: the last boundary's contents of the result buffer are the reference's result stage of the arguments. -/
theorem result_eq (c : Dev nD) : W4 m ρ c (Proc.devRef .tc main_v43)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W4 m ρ c (Proc.devRef .tc main_v43) = (dat1 (V3 m ρ) c).arrAt 5 cfg1.N from W4_arr m ρ c 5]
  rw [Blocks1.final (V3 m ρ) c, Cert.ReferenceIdeal.Layers.layer2_eq _ _ _ _ _ _ _ _ _ _ _ shapeCasts_S256_S1x256]
  rw [V3_v22, V3_v41, V3_arg4, V3_arg5, V3_v42]

/-- The run with the result named by the reference's stage function. -/
theorem run_value : θ_run defs (onTc (τ := τ) (main (F := Ideal))) ⟨m, fun _ => 0, ρ⟩ (fun r => ∀ c : Dev nD,
      r.2.mem ((c.tc : Thread nD τ).loc main_v43)
        = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run (F := Ideal) m ρ)

end Cert.KernelIdeal.Result

end
-- ==== Proof.lean ====
/-
  A two-layer mean-aggregating graph network: the kernel program against its reference, on the extended reals.

  Both programs compute, for each layer, a neighbour mean (the rows of the layer's input at the edges' sources, added
  into the edges' destinations and divided by the in-degree, at least one) and then the dense combine
      h_dst · W_self + h_neigh · W_neigh + bias,
  the first layer's clamped below at zero; the second layer reads the first 8192 rows of the first layer's output and
  that output's neighbour mean.  The kernel program evaluates each combine as a grid of 2048-row tiles on the matrix
  unit and everything else by the same host operations as the reference; the reference evaluates the combines as
  whole dot_generals.  Entry by entry the two combines are the same sum with the same grouping of its three terms, so
  the results agree for all inputs; finiteness of the inputs is not used.

  The three frames: the two kernel programs' by their generated frame proofs, the reference's from its generated run.
  The idealization rewrote no operation, so there is nothing to preserve.  The value claim: the kernel program's run
  ends with the result buffer at the reference's result stage of the arguments (KernelValue.lean), the reference's
  run ends there by its generated run, and the arguments agree.
-/
import proofs.«128761_j25280177504627_1_alg».proof.Defs
import proofs.«128761_j25280177504627_1_alg».proof.Proof.Gen.Kernel
import proofs.«128761_j25280177504627_1_alg».proof.Proof.Gen.Kernel.Skeleton
import proofs.«128761_j25280177504627_1_alg».proof.Proof.Gen.Kernel.Launch
import proofs.«128761_j25280177504627_1_alg».proof.Proof.Gen.Kernel.Points
import proofs.«128761_j25280177504627_1_alg».proof.Proof.Gen.Kernel.Frame
import proofs.«128761_j25280177504627_1_alg».proof.Proof.Gen.KernelIdeal
import proofs.«128761_j25280177504627_1_alg».proof.Proof.Gen.KernelIdeal.Skeleton
import proofs.«128761_j25280177504627_1_alg».proof.Proof.Gen.KernelIdeal.Launch
import proofs.«128761_j25280177504627_1_alg».proof.Proof.Gen.KernelIdeal.Points
import proofs.«128761_j25280177504627_1_alg».proof.Proof.Gen.KernelIdeal.Frame
import proofs.«128761_j25280177504627_1_alg».proof.Proof.Gen.ReferenceIdeal
import proofs.«128761_j25280177504627_1_alg».proof.Proof.Gen.ReferenceIdeal.Run
import proofs.«128761_j25280177504627_1_alg».proof.Proof.Gen.ReferenceIdeal.Read
import proofs.«128761_j25280177504627_1_alg».proof.Proof.Gen.Pre_finite_inputs
import proofs.«128761_j25280177504627_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the reference's result stage of the (agreeing) arguments. -/
theorem algebraic : Cert.algebraic_KernelIdeal_ReferenceIdeal := by
  intro m ρ m' ρ' _ hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
